-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S100000x256 : Shape := ⟨2, ![100000, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_arg6 : FVec F S100000x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S100000x256 .f32 := Host.absf main_arg6
  let main_cst_6 : FVec F S_ .f32 := constant S_ .f32 0x7F800000#32
  let main_v20 : FVec F S100000x256 .f32 := broadcastInDim S100000x256 ![] bcast_S_S100000x256 main_cst_6
  let main_v21 : IVec S100000x256 1 := cmpf .olt main_v19 main_v20
  let main_c_7 : IVec S_ 1 := constantI S_ 1 1#1
  let main_v22 : IVec S_ 1 := (fun x v => Host.reduce IntOp.andi x v reducesTo_S100000x256_S_d0_1 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x256 .f32) (main_arg5 : FVec F S256 .f32) (main_arg6 : FVec F S100000x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S100000x256 : Shape := ⟨2, ![100000, 256]⟩
abbrev S1600000x1 : Shape := ⟨2, ![1600000, 1]⟩
abbrev S_ : Shape := ⟨0, ![]⟩
abbrev S1600000x128 : Shape := ⟨2, ![1600000, 128]⟩
abbrev S1x256 : Shape := ⟨2, ![1, 256]⟩
abbrev S5000x128 : Shape := ⟨2, ![5000, 128]⟩
abbrev S5000x256 : Shape := ⟨2, ![5000, 256]⟩

abbrev nBuf : Space → Nat
  | .hbm => 25
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S256, .f32⟩
  | .hbm, ⟨6, _⟩ => ⟨S100000x256, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x256, .f32⟩
  | .hbm, ⟨24, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S5000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S100000x256 : Shape := ⟨2, ![100000, 256]⟩
abbrev S1600000x1 : Shape := ⟨2, ![1600000, 1]⟩
abbrev S_ : Shape := ⟨0, ![]⟩
abbrev S1600000x128 : Shape := ⟨2, ![1600000, 128]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S256, .f32⟩
  | .hbm, ⟨6, _⟩ => ⟨S100000x256, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x256, .f32⟩
  | .hbm, ⟨24, _⟩ => ⟨S1x256, .f32⟩
  | .hbm, ⟨25, _⟩ => ⟨S100000x256, .f32⟩
  | .hbm, ⟨26, _⟩ => ⟨S100000x256, .f32⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.DenseSpec.lean ====
/-
  The dense layer both programs end with, as one function of four arrays: for a node row `r` and an output
  column `c`,
      layer A W b L (r, c) = max (∑ k, A (r, k) * W (k, c) + b c) 0 + L (r, c)
  on the extended reals: a [100000, 128] array `A` times a [128, 256] matrix, a bias per column, the
  rectifier, and a residual added entry by entry. The zero is written as the word both programs print for it,
  so it is never evaluated. Nothing here depends on either program.
-/
import Idealize.ShloMosaic.PureOps.Ideal
import Idealize.ShloMosaic.Lib.ValueIdx

noncomputable section

namespace Cert.Dense

open Idealize.ShloMosaic Idealize.ShloMosaic.ValueIdx

/-- `relu (A · W + b) + L`, entry by entry. -/
def layer (A : (⟨2, ![100000, 128]⟩ : Shape).Idx → EReal) (W : (⟨2, ![128, 256]⟩ : Shape).Idx → EReal)
    (b : (⟨1, ![256]⟩ : Shape).Idx → EReal) (L : (⟨2, ![100000, 256]⟩ : Shape).Idx → EReal) :
    (⟨2, ![100000, 256]⟩ : Shape).Idx → EReal :=
  fun i => max ((∑ k : Fin 128, A (ix2 (i 0) k) * W (ix2 k (i 1))) + b (ix1 (i 1))) (Ideal.ofBits .f32 0x00000000#32) + L i

/-- The same at coordinates. -/
theorem layer_apply (A : (⟨2, ![100000, 128]⟩ : Shape).Idx → EReal) (W : (⟨2, ![128, 256]⟩ : Shape).Idx → EReal)
    (b : (⟨1, ![256]⟩ : Shape).Idx → EReal) (L : (⟨2, ![100000, 256]⟩ : Shape).Idx → EReal)
    (r : Fin 100000) (c : Fin 256) :
    layer A W b L (ix2 r c)
      = max ((∑ k : Fin 128, A (ix2 r k) * W (ix2 k c)) + b (ix1 c)) (Ideal.ofBits .f32 0x00000000#32) + L (ix2 r c) := rfl

end Cert.Dense

end
-- ==== Proof.KernelTile.lean ====
/-
  One tile of the kernel, entry by entry, on the extended reals. The body loads a [5000, 128] block `x0` of the
  aggregated features, the whole [128, 256] weight matrix `x1`, the bias as one [1, 256] row `x2` and a
  [5000, 256] block `x3` of the residual, and stores
      max (x0 · x1 + x2, 0) + x3 .
  Narrowing the two matrix operands to bf16 changes nothing on the extended reals, the product into a zero
  accumulator is the plain sum over the 128 contracted coordinates, and the bias row is the same for every
  row of the tile. So the entry at row `p`, column `q` of what is stored is
      max (∑ k, x0 (p, k) * x1 (k, q) + x2 (0, q)) 0 + x3 (p, q).
-/
import proofs.«161610_j8787503087822_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the tile's matrix product -/

theorem lhs_row (i : S5000x256.Idx) (u : dot_S5000x128_S128x256_S5000x256_1_0_0_1_n_n.contr.Idx) :
    (dot_S5000x128_S128x256_S5000x256_1_0_0_1_n_n.lhsIdx i u 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

theorem lhs_contr (i : S5000x256.Idx) (u : dot_S5000x128_S128x256_S5000x256_1_0_0_1_n_n.contr.Idx) :
    (dot_S5000x128_S128x256_S5000x256_1_0_0_1_n_n.lhsIdx i u 1).val = (u ⟨0, by decide⟩).val :=
  dot_S5000x128_S128x256_S5000x256_1_0_0_1_n_n.lhsIdx_val_of_single rfl i u

theorem rhs_contr (i : S5000x256.Idx) (u : dot_S5000x128_S128x256_S5000x256_1_0_0_1_n_n.contr.Idx) :
    (dot_S5000x128_S128x256_S5000x256_1_0_0_1_n_n.rhsIdx i u 0).val = (u ⟨0, by decide⟩).val :=
  dot_S5000x128_S128x256_S5000x256_1_0_0_1_n_n.rhsIdx_val_of_single rfl i u

theorem rhs_col (i : S5000x256.Idx) (u : dot_S5000x128_S128x256_S5000x256_1_0_0_1_n_n.contr.Idx) :
    (dot_S5000x128_S128x256_S5000x256_1_0_0_1_n_n.rhsIdx i u 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The tile's product into a zero accumulator, at row `p` and column `q`: the sum over the contracted
    coordinate of the left operand's row `p` against the right operand's column `q`. -/
theorem product_apply {φ₁ φ₂ : FTy} (l : FVec Ideal S5000x128 φ₁) (r : FVec Ideal S128x256 φ₂) (p : Fin 5000) (q : Fin 256) :
    matmul dot_S5000x128_S128x256_S5000x256_1_0_0_1_n_n none l r (constant S5000x256 .f32 0x00000000#32) (ix2 p q)
      = ∑ k : Fin 128, l (ix2 p k) * r (ix2 k q) := by
  show FloatOps.matmul _ _ _ _ _ _ = _
  rw [Ideal.matmul_constant_zero_apply,
    ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q)
      ((ValueIdx.contrEquiv1 dot_S5000x128_S128x256_S5000x256_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x256_S5000x256_1_0_0_1_n_n.rhsIdx (ix2 p q)
      ((ValueIdx.contrEquiv1 dot_S5000x128_S128x256_S5000x256_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-! ## What the body stores -/

/-- The stored tile at row `p`, column `q`. -/
theorem pay_apply (x0 : Vec Ideal S5000x128 .f32) (x1 : Vec Ideal S128x256 .f32) (x2 : Vec Ideal S1x256 .f32)
    (x3 : Vec Ideal S5000x256 .f32) (p : Fin 5000) (q : Fin 256) :
    k0_pay1 (F := Ideal) x0 x1 x2 x3 (ix2 p q)
      = max ((∑ k : Fin 128, x0 (ix2 p k) * x1 (ix2 k q)) + x2 (ix2 (0 : Fin 1) q)) (Ideal.ofBits .f32 0x00000000#32)
          + x3 (ix2 p q) := by
  unfold k0_pay1
  simp only [addf_apply, maximumf_apply, broadcast_apply, shapeCast_self]
  rw [product_apply, broadcastTo_1b_ab_apply]
  rfl

end Cert.KernelIdeal.Tile

end
-- ==== Proof.KernelValue.lean ====
/-
  The kernel's result array as the dense layer of the arrays the region finds. The grid has 20 points; at
  point `t` the body sees rows 5000 t … 5000 t + 4999 of the aggregated features and of the residual, the whole
  weight matrix and the bias row, and writes back rows 5000 t … 5000 t + 4999 of the result. Entry (p, q) of the
  tile it stores is `max (∑ k, x0 (p, k) * x1 (k, q) + x2 (0, q)) 0 + x3 (p, q)` (the tile lemma); read through the
  blocks, that is entry (5000 t + p, q) of `Cert.Dense.layer` of the whole arrays, because row `p` of block `t` is
  row 5000 t + p of the array and the weights and the bias do not move with `t`. The 20 blocks cover every row
  (row `r` lies in block `r / 5000`), so the array after the run is the layer everywhere.
  The aggregated features are what the host operations before the region computed (`agg`); the bias row is the
  bias vector given a leading axis of length one.
-/
import proofs.«161610_j8787503087822_1_alg».proof.Proof.Gen.KernelIdeal.Value
import proofs.«161610_j8787503087822_1_alg».proof.Proof.DenseSpec
import proofs.«161610_j8787503087822_1_alg».proof.Proof.KernelTile
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host operations before the region leave -/

/-- The aggregated features as the host computes them from the four graph arguments: every edge's weight times
    the feature row its column index names (an index below zero counted from the end), added into the row its row
    index names, starting from zero. It is never opened here: both programs compute it by the same operations. -/
def agg (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (mulf (broadcastInDim S1600000x128 ![0, 1] bcast_S1600000x1_S1600000x128_0_1 (broadcastInDim S1600000x1 ![0] bcast_S1600000_S1600000x1_0 x3))
      (Host.gather gather_S100000x128_S1600000x1_S1600000x128_1_0_n_n_0_1_1128 x0
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2))))

/-- The region finds the aggregated features in the array its first window stages. -/
theorem V_agg (c : Dev nD) :
    (V m c main_v12 : (⟨S100000x128, .f32⟩ : BufTy).Contents (Elt Ideal))
      = agg (m ((c : Thread nD τ).loc main_arg0)) (m ((c : Thread nD τ).loc main_arg1))
          (m ((c : Thread nD τ).loc main_arg2)) (m ((c : Thread nD τ).loc main_arg3)) := by
  dsimp only [V, hostOps0]
  after_results
  unfold agg
  rfl

/-- The bias row the region finds is the bias vector with a leading axis of length one. -/
theorem V_bias (c : Dev nD) (q : Fin 256) :
    (V m c main_v13 : S1x256.Idx → EReal) (ix2 (0 : Fin 1) q)
      = (m ((c : Thread nD τ).loc main_arg5) : S256.Idx → EReal) (ix1 q) := by
  have e : (V m c main_v13 : S1x256.Idx → EReal)
      = shapeCast S1x256 (m ((c : Thread nD τ).loc main_arg5) : S256.Idx → EReal) shapeCasts_S256_S1x256 := by
    dsimp only [V, hostOps0]
    after_results
    rfl
  rw [e, shapeCast_a_1a_apply]

/-! ## The result array as one function -/

/-- The dense layer of the aggregated features the region finds and of the weight, bias and residual arguments. -/
def G (c : Dev nD) : S100000x256.Idx → EReal :=
  Cert.Dense.layer (V m c main_v12) (m ((c : Thread nD τ).loc main_arg4)) (m ((c : Thread nD τ).loc main_arg5))
    (m ((c : Thread nD τ).loc main_arg6))

theorem hz : (![0, 0] : Fin 2 → Nat) = fun _ => 0 := funext fun a => by fin_cases a <;> rfl

/-- Where each window's block sits at grid point `t`: the features, the residual and the result move down one
    block of rows per point; the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0)

/-! ## Each block read where it sits in its array -/

/-- Row `p` of the block at point `t` of the first window, read off any [100000, 128] array, is row 5000 t + p
    of that array. -/
theorem feat_read (X : (⟨S100000x128, .f32⟩ : BufTy).Contents (Elt Ideal)) (t : Fin cfg0.N) (p : Fin 5000) (k : Fin 128)
    (r : Fin 100000) (hr : r.val = t.val * 5000 + p.val) :
    ((cfg0.win 0).blk t).view.read (Elt Ideal) X (ix2 p k) = X (ix2 r k) := by
  obtain ⟨e00, e01, -⟩ := idx_facts t
  show X (((cfg0.win 0).blk t).view.emb (ix2 p k)) = X (ix2 r k)
  refine congrArg X (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The second window's block, read off any [128, 256] array, is that array at every point. -/
theorem weight_read (X : (⟨S128x256, .f32⟩ : BufTy).Contents (Elt Ideal)) (t : Fin cfg0.N) (k : Fin 128) (q : Fin 256) :
    ((cfg0.win 1).blk t).view.read (Elt Ideal) X (ix2 k q) = X (ix2 k q) := by
  obtain ⟨-, -, e10, e11, -⟩ := idx_facts t
  show X (((cfg0.win 1).blk t).view.emb (ix2 k q)) = X (ix2 k q)
  refine congrArg X (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The third window's block, read off any [1, 256] array, is that row at every point. -/
theorem bias_read (X : (⟨S1x256, .f32⟩ : BufTy).Contents (Elt Ideal)) (t : Fin cfg0.N) (q : Fin 256) :
    ((cfg0.win 2).blk t).view.read (Elt Ideal) X (ix2 (0 : Fin 1) q) = X (ix2 (0 : Fin 1) q) := by
  obtain ⟨-, -, -, -, e20, e21, -⟩ := idx_facts t
  show X (((cfg0.win 2).blk t).view.emb (ix2 (0 : Fin 1) q)) = X (ix2 (0 : Fin 1) q)
  refine congrArg X (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- Row `p` of the block at point `t` of the fourth window, read off any [100000, 256] array, is row 5000 t + p
    of that array. -/
theorem resid_read (X : (⟨S100000x256, .f32⟩ : BufTy).Contents (Elt Ideal)) (t : Fin cfg0.N) (p : Fin 5000) (q : Fin 256)
    (r : Fin 100000) (hr : r.val = t.val * 5000 + p.val) :
    ((cfg0.win 3).blk t).view.read (Elt Ideal) X (ix2 p q) = X (ix2 r q) := by
  obtain ⟨-, -, -, -, -, -, e30, e31, -⟩ := idx_facts t
  show X (((cfg0.win 3).blk t).view.emb (ix2 p q)) = X (ix2 r q)
  refine congrArg X (funext fun a => Fin.ext ?_)
  match a with
  | ⟨0, _⟩ => show win0_3.index t (0 : Fin 2) * 5000 + 1 * p.val = r.val; omega
  | ⟨1, _⟩ => show win0_3.index t (1 : Fin 2) * 256 + 1 * q.val = q.val; omega

/-- Row `p` of the features' block at point `t` is row 5000 t + p of the aggregated features. -/
theorem feat_blk (c : Dev nD) (t : Fin cfg0.N) (p : Fin 5000) (k : Fin 128) (r : Fin 100000) (hr : r.val = t.val * 5000 + p.val) :
    (iblk m c 0 t : Vec Ideal S5000x128 .f32) (ix2 p k) = (V m c main_v12 : S100000x128.Idx → EReal) (ix2 r k) := by
  unfold iblk
  exact feat_read (V m c main_v12) t p k r hr

/-- The weights' block is the weight matrix at every point. -/
theorem weight_blk (c : Dev nD) (t : Fin cfg0.N) (k : Fin 128) (q : Fin 256) :
    (iblk m c 1 t : Vec Ideal S128x256 .f32) (ix2 k q) = (m ((c : Thread nD τ).loc main_arg4) : S128x256.Idx → EReal) (ix2 k q) := by
  unfold iblk
  refine (weight_read (V m c main_arg4) t k q).trans ?_
  rw [V_main_arg4]

/-- The bias block is the bias vector as a row, at every point. -/
theorem bias_blk (c : Dev nD) (t : Fin cfg0.N) (q : Fin 256) :
    (iblk m c 2 t : Vec Ideal S1x256 .f32) (ix2 (0 : Fin 1) q) = (m ((c : Thread nD τ).loc main_arg5) : S256.Idx → EReal) (ix1 q) := by
  unfold iblk
  exact (bias_read (V m c main_v13) t q).trans (V_bias m c q)

/-- Row `p` of the residual's block at point `t` is row 5000 t + p of the residual. -/
theorem resid_blk (c : Dev nD) (t : Fin cfg0.N) (p : Fin 5000) (q : Fin 256) (r : Fin 100000) (hr : r.val = t.val * 5000 + p.val) :
    (iblk m c 3 t : Vec Ideal S5000x256 .f32) (ix2 p q) = (m ((c : Thread nD τ).loc main_arg6) : S100000x256.Idx → EReal) (ix2 r q) := by
  unfold iblk
  refine (resid_read (V m c main_arg6) t p q r hr).trans ?_
  rw [V_main_arg6]

/-- Row `p` of the result's block at point `t` is row 5000 t + p of the result. -/
theorem out_blk (t : Fin cfg0.N) (p : Fin 5000) (q : Fin 256) (r : Fin 100000) (hr : r.val = t.val * 5000 + p.val) :
    (((cfg0.win 4).blk t).view.emb (ix2 p q) : S100000x256.Idx) = ix2 r q := by
  obtain ⟨-, -, -, -, -, -, -, -, e40, e41⟩ := idx_facts t
  refine funext fun a => Fin.ext ?_
  match a with
  | ⟨0, _⟩ => show win0_4.index t (0 : Fin 2) * 5000 + 1 * p.val = r.val; omega
  | ⟨1, _⟩ => show win0_4.index t (1 : Fin 2) * 256 + 1 * q.val = q.val; omega

/-! ## What a point writes back -/

/-- A stored tile against the layer, for any tile operands and any whole arrays: if row `p` of the features' tile is
    row `r` of `A`, the weights' tile is `W`, the bias row is `b` and row `p` of the residual's tile is row `r` of `L`,
    then entry (p, q) of the stored tile is entry (r, q) of the layer. -/
theorem tile_layer (x0 : Vec Ideal S5000x128 .f32) (x1 : Vec Ideal S128x256 .f32) (x2 : Vec Ideal S1x256 .f32)
    (x3 : Vec Ideal S5000x256 .f32)
    (A : (⟨2, ![100000, 128]⟩ : Shape).Idx → EReal) (W : (⟨2, ![128, 256]⟩ : Shape).Idx → EReal)
    (b : (⟨1, ![256]⟩ : Shape).Idx → EReal) (L : (⟨2, ![100000, 256]⟩ : Shape).Idx → EReal)
    (p : Fin 5000) (q : Fin 256) (r : Fin 100000)
    (h0 : ∀ k : Fin 128, x0 (ix2 p k) = A (ix2 r k)) (h1 : ∀ k : Fin 128, x1 (ix2 k q) = W (ix2 k q))
    (h2 : x2 (ix2 (0 : Fin 1) q) = b (ix1 q)) (h3 : x3 (ix2 p q) = L (ix2 r q)) :
    k0_pay1 (F := Ideal) x0 x1 x2 x3 (ix2 p q) = Cert.Dense.layer A W b L (ix2 r q) := by
  have hs : (∑ k : Fin 128, x0 (ix2 p k) * x1 (ix2 k q)) = ∑ k : Fin 128, A (ix2 r k) * W (ix2 k q) :=
    Finset.sum_congr rfl fun k _ => by rw [h0 k, h1 k]
  rw [Tile.pay_apply, Cert.Dense.layer_apply, hs, h2, h3]

/-- The tile stored at point `t`, at row `p` and column `q`, is the layer at row 5000 t + p and column `q`. -/
theorem tile_eq (c : Dev nD) (t : Fin cfg0.N) (p : Fin 5000) (q : Fin 256) (r : Fin 100000) (hr : r.val = t.val * 5000 + p.val) :
    k0_pay1 (F := Ideal) (iblk m c 0 t) (iblk m c 1 t) (iblk m c 2 t) (iblk m c 3 t) (ix2 p q) = G m c (ix2 r q) := by
  unfold G
  exact tile_layer (iblk m c 0 t) (iblk m c 1 t) (iblk m c 2 t) (iblk m c 3 t)
    (V m c main_v12) (m ((c : Thread nD τ).loc main_arg4)) (m ((c : Thread nD τ).loc main_arg5))
    (m ((c : Thread nD τ).loc main_arg6)) p q r
    (fun k => feat_blk m c t p k r hr) (fun k => weight_blk m c t k q) (bias_blk m c t q) (resid_blk m c t p q r hr)

/-- The same at any entry of the tile, read through the result's block. -/
theorem tile_at (c : Dev nD) (t : Fin cfg0.N) (j : S5000x256.Idx) :
    k0_pay1 (F := Ideal) (iblk m c 0 t) (iblk m c 1 t) (iblk m c 2 t) (iblk m c 3 t) j
      = G m c (((cfg0.win 4).blk t).view.emb j) := by
  obtain ⟨p, q, rfl⟩ : ∃ (p : Fin 5000) (q : Fin 256), j = ix2 p q := ⟨j 0, j 1, eq_ix2 j⟩
  have hp := p.isLt
  have ht : t.val < 20 := lt_of_lt_of_eq t.isLt N_0
  obtain ⟨r, hr⟩ : ∃ r : Fin 100000, r.val = t.val * 5000 + p.val := ⟨⟨t.val * 5000 + p.val, by omega⟩, rfl⟩
  rw [out_blk t p q r hr]
  exact tile_eq m c t p q r hr

/-- A tile that agrees, entry by entry, with an array read where the result's block at point `t` sits is that
    array's block at `t` (the result's blocks are never clipped, so nothing is cut off the tile). -/
theorem block_of_entries (Y : Vec Ideal S5000x256 .f32) (X : (⟨S100000x256, .f32⟩ : BufTy).Contents (Elt Ideal)) (t : Fin cfg0.N)
    (h : ∀ j : S5000x256.Idx, Y j = X (((cfg0.win 4).blk t).view.emb j)) :
    (cfg0.win 4).cut (grid0.coords t) Y = ((cfg0.win 4).blk t).view.read (Elt Ideal) X := by
  funext j
  exact h j

/-- What point `t` writes back is block `t` of the layer. -/
theorem flushed_eq (c : Dev nD) (t : Fin cfg0.N) :
    (dats m 0 c).flushed 4 t = ((cfg0.win 4).blk t).view.read (Elt Ideal) (G m c) := by
  rw [Cert.KernelIdeal.Value.flushed4]
  unfold out0_4
  rw [View.canon_unit_zero hz]
  simp only [View.ld_unit_zero (S := S5000x128) hz, View.ld_unit_zero (S := S128x256) hz,
    View.ld_unit_zero (S := S1x256) hz, View.ld_unit_zero (S := S5000x256) hz]
  exact block_of_entries _ (G m c) t (tile_at m c t)

/-! ## The blocks cover the array -/

/-- An entry is in point `t`'s block iff each coordinate is in the block's range on its axis. -/
theorem mem_blk (t : Fin cfg0.N) (i : S100000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v14).slice (win0_4.rect t)).set ↔ _
  rw [View.set_slice_whole, Rect.mem_set_unit]
  exact Iff.rfl

/-- Row `r` of the result lies in the block of point `r / 5000`, which is written back. -/
theorem cover (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 256 ≤ (i 1).val ∧ (i 1).val < win0_4.index t (1 : Fin 2) * 256 + 256
    omega

/-! ## The array after the run, and the run -/

/-- The result array after the run is the layer. -/
theorem final (c : Dev nD) : (dats m 0 c).arrAt 4 cfg0.N = G m c :=
  (dats m 0 c).arrAt_eq_of_cover 4 (G m c) (fun t _ => flushed_eq m c t) cover

/-- The layer of the aggregated features as the host computes them from the graph arguments. -/
def result (c : Dev nD) : S100000x256.Idx → EReal :=
  Cert.Dense.layer
    (agg (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5)) (m ((c : Thread nD τ).loc main_arg6))

theorem G_eq (c : Dev nD) : G m c = result m c := by
  unfold G result
  rw [V_agg]

/-- Every weakly fair execution of the kernel's program ends with the result array at the layer of the
    aggregated features, and the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (G_eq m c)), (h c).2⟩)
    (Cert.KernelIdeal.Value.run_blocks m ρ)

end Cert.KernelIdeal.Whole

end
-- ==== Proof.RefValue.lean ====
/-
  The reference's result as the dense layer of its own aggregated array. After the scatter-add has produced the
  [100000, 128] array of aggregated features, the reference multiplies it by the weight matrix in one product,
  adds the bias broadcast over the rows, takes the maximum with zero and adds the residual. Read at an entry
  (r, c) through the generated stage lemmas, the product is the sum over the 128 contracted coordinates of
  entry (r, k) of the aggregated array times entry (k, c) of the weights, and the broadcast bias is `b c`:
  the layer of `Cert.Dense.layer`, with nothing rearranged.
-/
import proofs.«161610_j8787503087822_1_alg».proof.Proof.Gen.ReferenceIdeal.Read
import proofs.«161610_j8787503087822_1_alg».proof.Proof.DenseSpec

noncomputable section

namespace Cert.ReferenceIdeal.Layer

open Cert.ReferenceIdeal Cert.ReferenceIdeal.Read Idealize.ShloMosaic Idealize.ShloMosaic.ValueIdx

/-- The product's left operand is read at row `i 0`, contracted coordinate `k`. -/
theorem lidx_eq (i : S100000x256.Idx) (k : Fin 128) : lidx_main_v13 i k = ix2 (i 0) k :=
  funext fun a => Fin.ext (by match a with | ⟨0, _⟩ => rfl | ⟨1, _⟩ => rfl)

/-- Its right operand at contracted coordinate `k`, column `i 1`. -/
theorem ridx_eq (i : S100000x256.Idx) (k : Fin 128) : ridx_main_v13 i k = ix2 k (i 1) :=
  funext fun a => Fin.ext (by match a with | ⟨0, _⟩ => rfl | ⟨1, _⟩ => rfl)

/-- The bias, made a row and then broadcast over the rows, is read at the column. -/
theorem bias_idx_eq (i : S100000x256.Idx) : idx_main_v14 (idx_main_v15 i) = ix1 (i 1) :=
  funext fun a => Fin.ext (by match a with | ⟨0, _⟩ => rfl)

/-- The reference's result is the dense layer of its aggregated array, the weights, the bias and the residual. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x256, .f32⟩ : BufTy).Contents (Elt Ideal))
    (x5 : (⟨S256, .f32⟩ : BufTy).Contents (Elt Ideal)) (x6 : (⟨S100000x256, .f32⟩ : BufTy).Contents (Elt Ideal)) :
    val_main_v18 (F := Ideal) x0 x1 x2 x3 x4 x5 x6
      = Cert.Dense.layer (val_main_v12 (F := Ideal) x0 x1 x2 x3) x4 x5 x6 := by
  funext i
  rw [val_main_v18_apply, val_main_v17_apply, val_main_v16_apply, val_main_v13_apply, val_main_v15_apply,
    val_main_v14_apply, val_main_call0_v0_apply, val_main_call0_cst_apply]
  simp only [lidx_eq, ridx_eq, bias_idx_eq]
  rfl

end Cert.ReferenceIdeal.Layer

end
-- ==== Proof.lean ====
/-
  A graph-convolution layer: the kernel against its reference, on the extended reals.

  Both programs first aggregate, on the host and by the very same operations: every edge's weight times the
  feature row its column index names, added into the row its row index names, starting from zero — a
  [100000, 128] array `agg`. Then the reference computes `relu (agg · W + b) + last_hidden` with one
  [100000, 128] × [128, 256] product, while the kernel walks the rows in 20 tiles of 5000 and computes the same
  expression tile by tile, with the two product operands narrowed to bf16 first. On the extended reals the
  narrowing is the identity, a product into a zero accumulator is the plain sum over the contracted axis, and
  the tiles partition the rows, so entry (r, c) of either result is
      max (∑ k, agg (r, k) * W (k, c) + b c) 0 + last_hidden (r, c)
  with the same summands in the same order: nothing is rearranged and no finiteness of the inputs is used.

  `Proof/DenseSpec.lean` states that function; `Proof/KernelTile.lean` reads one stored tile at an entry;
  `Proof/KernelValue.lean` puts the tiles together into the kernel's result array and its run;
  `Proof/RefValue.lean` reads the reference's result at an entry. Here: the aggregated arrays of the two programs
  are one term, the three frames, and the claim. The kernel's idealization rewrote nothing, so there is nothing
  to preserve.
-/
import proofs.«161610_j8787503087822_1_alg».proof.Defs
import proofs.«161610_j8787503087822_1_alg».proof.Proof.Gen.Kernel
import proofs.«161610_j8787503087822_1_alg».proof.Proof.Gen.Kernel.Frame
import proofs.«161610_j8787503087822_1_alg».proof.Proof.Gen.KernelIdeal
import proofs.«161610_j8787503087822_1_alg».proof.Proof.Gen.KernelIdeal.Frame
import proofs.«161610_j8787503087822_1_alg».proof.Proof.Gen.KernelIdeal.Value
import proofs.«161610_j8787503087822_1_alg».proof.Proof.Gen.ReferenceIdeal
import proofs.«161610_j8787503087822_1_alg».proof.Proof.Gen.ReferenceIdeal.Run
import proofs.«161610_j8787503087822_1_alg».proof.Proof.Gen.ReferenceIdeal.Read
import proofs.«161610_j8787503087822_1_alg».proof.Proof.Gen.Pre_finite_inputs
import proofs.«161610_j8787503087822_1_alg».proof.Proof.DenseSpec
import proofs.«161610_j8787503087822_1_alg».proof.Proof.KernelTile
import proofs.«161610_j8787503087822_1_alg».proof.Proof.KernelValue
import proofs.«161610_j8787503087822_1_alg».proof.Proof.RefValue
import Idealize.ShloMosaic.Adequacy
import Idealize.ShloMosaic.Init

noncomputable section

namespace Cert.Proof

open Idealize.ShloMosaic Idealize.ShloMosaic.TcCoe Idealize.SL.Sem

/-- The aggregated features of the two programs are one term: the same host operations, in the same order, with
    the same literals, of the same arguments. -/
theorem agg_eq (x0 : (⟨Cert.KernelIdeal.S100000x128, .f32⟩ : BufTy).Contents (Elt Ideal))
    (x1 x2 : (⟨Cert.KernelIdeal.S1600000, .i32⟩ : BufTy).Contents (Elt Ideal))
    (x3 : (⟨Cert.KernelIdeal.S1600000, .f32⟩ : BufTy).Contents (Elt Ideal)) :
    Cert.KernelIdeal.Whole.agg x0 x1 x2 x3 = Cert.ReferenceIdeal.Read.val_main_v12 (F := Ideal) x0 x1 x2 x3 := by
  unfold Cert.KernelIdeal.Whole.agg Cert.ReferenceIdeal.Read.val_main_v12 Cert.ReferenceIdeal.Read.val_main_v11
    Cert.ReferenceIdeal.Read.val_main_v10 Cert.ReferenceIdeal.Read.val_main_cst Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_c_0 Cert.ReferenceIdeal.Read.val_main_v2 Cert.ReferenceIdeal.Read.val_main_v1
    Cert.ReferenceIdeal.Read.val_main_c Cert.ReferenceIdeal.Read.val_main_v0
  rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the dense layer of its aggregated
    features and the reference's at the dense layer of its own; the two aggregated arrays are one term. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Read.val_main_v18_eq _ _ _ _ _ _ _).trans
    ((Cert.ReferenceIdeal.Layer.result_eq _ _ _ _ _ _ _).trans ?_)
  unfold Cert.KernelIdeal.Whole.result
  rw [← agg_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
